-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x512 : Shape := ⟨3, ![4, 256, 512]⟩
abbrev S4x64x512 : Shape := ⟨3, ![4, 64, 512]⟩
abbrev S1024x512 : Shape := ⟨2, ![1024, 512]⟩
abbrev S512 : Shape := ⟨1, ![512]⟩
abbrev S512x2048 : Shape := ⟨2, ![512, 2048]⟩
abbrev S2048 : Shape := ⟨1, ![2048]⟩
abbrev S_ : Shape := ⟨0, ![]⟩

class Facts : Prop where
  bcast_S_S4x256x512 : S_.BroadcastsInDim S4x256x512 (![] : Fin 0 → Fin S4x256x512.rank)
  reducesTo_S4x256x512_S_d0_1_2 : S4x256x512.ReducesTo [0, 1, 2] S_
  h_S_ : 0 < S_.numel
  bcast_S_S4x64x512 : S_.BroadcastsInDim S4x64x512 (![] : Fin 0 → Fin S4x64x512.rank)
  reducesTo_S4x64x512_S_d0_1_2 : S4x64x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S512x2048 .f32) (main_arg5 : FVec F S2048 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x2048 .f32 := Host.absf main_arg4
  let main_cst_6 : FVec F S_ .f32 := constant S_ .f32 0x7F800000#32
  let main_v20 : FVec F S512x2048 .f32 := broadcastInDim S512x2048 ![] bcast_S_S512x2048 main_cst_6
  let main_v21 : IVec S512x2048 1 := cmpf .olt main_v19 main_v20
  let main_c_7 : IVec S_ 1 := constantI S_ 1 1#1
  let main_v22 : IVec S_ 1 := (fun x v => Host.reduce IntOp.andi x v reducesTo_S512x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S4x256x512 .f32) (main_arg1 : FVec F S4x64x512 .f32) (main_arg2 : FVec F S1024x512 .f32) (main_arg3 : FVec F S512 .f32) (main_arg4 : FVec F S512x2048 .f32) (main_arg5 : FVec F S2048 .f32) : IVec S_ 1 :=
  let main_v0 : FVec F S4x256x512 .f32 := Host.absf main_arg0
  let main_cst : FVec F S_ .f32 := constant S_ .f32 0x7F800000#32
  let main_v1 : FVec F S4x256x512 .f32 := broadcastInDim S4x256x512 ![] bcast_S_S4x256x512 main_cst
  let main_v2 : IVec S4x256x512 1 := cmpf .olt main_v0 main_v1
  let main_c : IVec S_ 1 := constantI S_ 1 1#1
  let main_v3 : IVec S_ 1 := (fun x v => Host.reduce IntOp.andi x v reducesTo_S4x256x512_S_d0_1_2 h_S_) main_v2 main_c
  let main_v4 : FVec F S4x64x512 .f32 := Host.absf main_arg1
  let main_cst_0 : FVec F S_ .f32 := constant S_ .f32 0x7F800000#32
  let main_v5 : FVec F S4x64x512 .f32 := broadcastInDim S4x64x512 ![] bcast_S_S4x64x512 main_cst_0
  let main_v6 : IVec S4x64x512 1 := cmpf .olt main_v4 main_v5
  let main_c_1 : IVec S_ 1 := constantI S_ 1 1#1
  let main_v7 : IVec S_ 1 := (fun x v => Host.reduce IntOp.andi x v reducesTo_S4x64x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S4x256x512 : Shape := ⟨3, ![4, 256, 512]⟩
abbrev S4x64x512 : Shape := ⟨3, ![4, 64, 512]⟩
abbrev S1024x512 : Shape := ⟨2, ![1024, 512]⟩
abbrev S512 : Shape := ⟨1, ![512]⟩
abbrev S512x2048 : Shape := ⟨2, ![512, 2048]⟩
abbrev S2048 : Shape := ⟨1, ![2048]⟩
abbrev S512x512 : Shape := ⟨2, ![512, 512]⟩
abbrev S4x256x64x2048 : Shape := ⟨4, ![4, 256, 64, 2048]⟩
abbrev S1x16x512 : Shape := ⟨3, ![1, 16, 512]⟩
abbrev S1x64x512 : Shape := ⟨3, ![1, 64, 512]⟩
abbrev S1x16x64x2048 : Shape := ⟨4, ![1, 16, 64, 2048]⟩
abbrev S16x512 : Shape := ⟨2, ![16, 512]⟩
abbrev S64x512 : Shape := ⟨2, ![64, 512]⟩
abbrev S16x1x512 : Shape := ⟨3, ![16, 1, 512]⟩
abbrev S16x64x512 : Shape := ⟨3, ![16, 64, 512]⟩
abbrev S1x1x512 : Shape := ⟨3, ![1, 1, 512]⟩
abbrev S1024x2048 : Shape := ⟨2, ![1024, 2048]⟩
abbrev S1x2048 : Shape := ⟨2, ![1, 2048]⟩
abbrev S16x64x2048 : Shape := ⟨3, ![16, 64, 2048]⟩

abbrev nBuf : Space → Nat
  | .hbm => 14
  | .vmem => 11
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x512, .f32⟩
  | .hbm, ⟨3, _⟩ => ⟨S512, .f32⟩
  | .hbm, ⟨4, _⟩ => ⟨S512x2048, .f32⟩
  | .hbm, ⟨5, _⟩ => ⟨S2048, .f32⟩
  | .hbm, ⟨6, _⟩ => ⟨S512x512, .f32⟩
  | .hbm, ⟨7, _⟩ => ⟨S512x512, .bf16⟩
  | .hbm, ⟨8, _⟩ => ⟨S512x512, .f32⟩
  | .hbm, ⟨9, _⟩ => ⟨S512x512, .bf16⟩
  | .hbm, ⟨10, _⟩ => ⟨S512x2048, .bf16⟩
  | .hbm, ⟨11, _⟩ => ⟨S4x256x512, .bf16⟩
  | .hbm, ⟨12, _⟩ => ⟨S4x64x512, .bf16⟩
  | .hbm, ⟨13, _⟩ => ⟨S4x256x64x2048, .f32⟩
  | .local _ .vmem, ⟨0, _⟩ => ⟨S1x16x512, .bf16⟩
  | .local _ .vmem, ⟨1, _⟩ => ⟨S1x16x512, .bf16⟩
  | .local _ .vmem, ⟨2, _⟩ => ⟨S1x64x512, .bf16⟩
  | .local _ .vmem, ⟨3, _⟩ => ⟨S1x64x512, .bf16⟩
  | .local _ .vmem, ⟨4, _⟩ => ⟨S512x512, .bf16⟩
  | .local _ .vmem, ⟨5, _⟩ => ⟨S512x512, .bf16⟩
  | .local _ .vmem, ⟨6, _⟩ => ⟨S512, .f32⟩
  | .local _ .vmem, ⟨7, _⟩ => ⟨S512x2048, .bf16⟩
  | .local _ .vmem, ⟨8, _⟩ => ⟨S2048, .f32⟩
  | .local _ .vmem, ⟨9, _⟩ => ⟨S1x16x64x2048, .f32⟩
  | .local _ .vmem, ⟨10, _⟩ => ⟨S1x16x64x2048, .f32⟩
  | _, _ => ⟨S4x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S1024x512_S512x512_0_0 : S1024x512.Slices ![0, 0] S512x512
  bitsLt_bf16_f32 : FTy.bits .bf16 < FTy.bits .f32
  slices_S1024x512_S512x512_512_0 : S1024x512.Slices ![512, 0] S512x512
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S16x512_S16x1x512 : S16x512.ShapeCasts S16x1x512
  shapeCasts_S16x1x512_S16x1x512 : S16x1x512.ShapeCasts S16x1x512
  broadcasts_S16x1x512_S16x64x512 : S16x1x512.Broadcasts S16x64x512
  shapeCasts_S64x512_S1x64x512 : S64x512.ShapeCasts S1x64x512
  shapeCasts_S1x64x512_S1x64x512 : S1x64x512.ShapeCasts S1x64x512
  broadcasts_S1x64x512_S16x64x512 : S1x64x512.Broadcasts S16x64x512
  shapeCasts_S512_S1x1x512 : S512.ShapeCasts S1x1x512
  broadcasts_S1x1x512_S16x64x512 : S1x1x512.Broadcasts S16x64x512
  shapeCasts_S16x64x512_S1024x512 : S16x64x512.ShapeCasts S1024x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  shapeCasts_S1024x2048_S16x64x2048 : S1024x2048.ShapeCasts S16x64x2048
  inb_S1x16x64x2048_S1x16x64x2048_0_0_0_0 : ∀ a, (![0, 0, 0, 0] : Fin 4 → Nat) a + S1x16x64x2048.size a ≤ S1x16x64x2048.size a
  h_S1x16x64x2048 : 0 < S1x16x64x2048.numel
  shapeCasts_S1x16x64x2048_S16x64x2048 : S1x16x64x2048.ShapeCasts S16x64x2048
  shapeCasts_S16x64x2048_S1x16x64x2048 : S16x64x2048.ShapeCasts S1x16x64x2048
  dot_S16x512_S512x512_S16x512_1_0_0_1_n_n_wf : DotDims.WF S16x512 S512x512 S16x512 [1] [0] [0] [1] [] []
  dot_S64x512_S512x512_S64x512_1_0_0_1_n_n_wf : DotDims.WF S64x512 S512x512 S64x512 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x256x512.size a
  hwx0_0 : ∀ i : grid0.Coords, EltTy.bits .bf16 = 32 ∨ (Rect.block (s := S4x256x512) S1x16x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S4x64x512.size a
  hwx0_1 : ∀ i : grid0.Coords, EltTy.bits .bf16 = 32 ∨ (Rect.block (s := S4x64x512) S1x64x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x64x2048.size a ≤ S4x256x64x2048.size a
  hwx0_7 : ∀ i : grid0.Coords, EltTy.bits .f32 = 32 ∨ (Rect.block (s := S4x256x64x2048) S1x16x64x2048.size (cc0_transform_7 i) (hinb0_7 i)).WholeWords (EltTy.packing .f32)

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v5) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x16x64x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x256x512 : Shape := ⟨3, ![4, 256, 512]⟩
abbrev S4x64x512 : Shape := ⟨3, ![4, 64, 512]⟩
abbrev S1024x512 : Shape := ⟨2, ![1024, 512]⟩
abbrev S512 : Shape := ⟨1, ![512]⟩
abbrev S512x2048 : Shape := ⟨2, ![512, 2048]⟩
abbrev S2048 : Shape := ⟨1, ![2048]⟩
abbrev S512x512 : Shape := ⟨2, ![512, 512]⟩
abbrev S4x256x1x512 : Shape := ⟨4, ![4, 256, 1, 512]⟩
abbrev S4x1x64x512 : Shape := ⟨4, ![4, 1, 64, 512]⟩
abbrev S4x256x64x512 : Shape := ⟨4, ![4, 256, 64, 512]⟩
abbrev S1x1x1x512 : Shape := ⟨4, ![1, 1, 1, 512]⟩
abbrev S4x256x64x2048 : Shape := ⟨4, ![4, 256, 64, 2048]⟩
abbrev S1x1x1x2048 : Shape := ⟨4, ![1, 1, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x256x512, .f32⟩
  | .hbm, ⟨1, _⟩ => ⟨S4x64x512, .f32⟩
  | .hbm, ⟨2, _⟩ => ⟨S1024x512, .f32⟩
  | .hbm, ⟨3, _⟩ => ⟨S512, .f32⟩
  | .hbm, ⟨4, _⟩ => ⟨S512x2048, .f32⟩
  | .hbm, ⟨5, _⟩ => ⟨S2048, .f32⟩
  | .hbm, ⟨6, _⟩ => ⟨S512x512, .f32⟩
  | .hbm, ⟨7, _⟩ => ⟨S512x512, .f32⟩
  | .hbm, ⟨8, _⟩ => ⟨S4x256x512, .f32⟩
  | .hbm, ⟨9, _⟩ => ⟨S4x64x512, .f32⟩
  | .hbm, ⟨10, _⟩ => ⟨S4x256x1x512, .f32⟩
  | .hbm, ⟨11, _⟩ => ⟨S4x1x64x512, .f32⟩
  | .hbm, ⟨12, _⟩ => ⟨S4x256x64x512, .f32⟩
  | .hbm, ⟨13, _⟩ => ⟨S4x256x64x512, .f32⟩
  | .hbm, ⟨14, _⟩ => ⟨S4x256x64x512, .f32⟩
  | .hbm, ⟨15, _⟩ => ⟨S1x1x1x512, .f32⟩
  | .hbm, ⟨16, _⟩ => ⟨S4x256x64x512, .f32⟩
  | .hbm, ⟨17, _⟩ => ⟨S4x256x64x512, .f32⟩
  | .hbm, ⟨18, _⟩ => ⟨S4x256x64x512, .f32⟩
  | .hbm, ⟨19, _⟩ => ⟨S4x256x64x2048, .f32⟩
  | .hbm, ⟨20, _⟩ => ⟨S1x1x1x2048, .f32⟩
  | .hbm, ⟨21, _⟩ => ⟨S4x256x64x2048, .f32⟩
  | .hbm, ⟨22, _⟩ => ⟨S4x256x64x2048, .f32⟩
  | _, _ => ⟨S4x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  slices_S1024x512_S512x512_0_0 : S1024x512.Slices ![0, 0] S512x512
  slices_S1024x512_S512x512_512_0 : S1024x512.Slices ![512, 0] S512x512
  bcast_S4x256x512_S4x256x1x512_0_1_3 : S4x256x512.BroadcastsInDim S4x256x1x512 (![0, 1, 3] : Fin 3 → Fin S4x256x1x512.rank)
  bcast_S4x64x512_S4x1x64x512_0_2_3 : S4x64x512.BroadcastsInDim S4x1x64x512 (![0, 2, 3] : Fin 3 → Fin S4x1x64x512.rank)
  bcast_S4x256x1x512_S4x256x64x512_0_1_2_3 : S4x256x1x512.BroadcastsInDim S4x256x64x512 (![0, 1, 2, 3] : Fin 4 → Fin S4x256x64x512.rank)
  bcast_S4x1x64x512_S4x256x64x512_0_1_2_3 : S4x1x64x512.BroadcastsInDim S4x256x64x512 (![0, 1, 2, 3] : Fin 4 → Fin S4x256x64x512.rank)
  bcast_S512_S1x1x1x512_3 : S512.BroadcastsInDim S1x1x1x512 (![3] : Fin 1 → Fin S1x1x1x512.rank)
  bcast_S1x1x1x512_S4x256x64x512_0_1_2_3 : S1x1x1x512.BroadcastsInDim S4x256x64x512 (![0, 1, 2, 3] : Fin 4 → Fin S4x256x64x512.rank)
  bcast_S2048_S1x1x1x2048_3 : S2048.BroadcastsInDim S1x1x1x2048 (![3] : Fin 1 → Fin S1x1x1x2048.rank)
  bcast_S1x1x1x2048_S4x256x64x2048_0_1_2_3 : S1x1x1x2048.BroadcastsInDim S4x256x64x2048 (![0, 1, 2, 3] : Fin 4 → Fin S4x256x64x2048.rank)
  dot_S4x256x512_S512x512_S4x256x512_2_0_01_1_n_n_wf : DotDims.WF S4x256x512 S512x512 S4x256x512 [2] [0] [0, 1] [1] [] []
  dot_S4x64x512_S512x512_S4x64x512_2_0_01_1_n_n_wf : DotDims.WF S4x64x512 S512x512 S4x64x512 [2] [0] [0, 1] [1] [] []
  dot_S4x256x64x512_S512x2048_S4x256x64x2048_3_0_012_1_n_n_wf : DotDims.WF S4x256x64x512 S512x2048 S4x256x64x2048 [3] [0] [0, 1, 2] [1] [] []

variable [Facts₀]

def dot_S4x256x512_S512x512_S4x256x512_2_0_01_1_n_n : DotDims S4x256x512 S512x512 S4x256x512 where
  lhsContracting := [2]
  rhsContracting := [0]
  lhsNonContracting := [0, 1]
  rhsNonContracting := [1]
  lhsBatch := []
  rhsBatch := []
  wf := dot_S4x256x512_S512x512_S4x256x512_2_0_01_1_n_n_wf
def dot_S4x64x512_S512x512_S4x64x512_2_0_01_1_n_n : DotDims S4x64x512 S512x512 S4x64x512 where
  lhsContracting := [2]
  rhsContracting := [0]
  lhsNonContracting := [0, 1]
  rhsNonContracting := [1]
  lhsBatch := []
  rhsBatch := []
  wf := dot_S4x64x512_S512x512_S4x64x512_2_0_01_1_n_n_wf
def dot_S4x256x64x512_S512x2048_S4x256x64x2048_3_0_012_1_n_n : DotDims S4x256x64x512 S512x2048 S4x256x64x2048 where
  lhsContracting := [3]
  rhsContracting := [0]
  lhsNonContracting := [0, 1, 2]
  rhsNonContracting := [1]
  lhsBatch := []
  rhsBatch := []
  wf := dot_S4x256x64x512_S512x2048_S4x256x64x2048_3_0_012_1_n_n_wf

class Facts : Prop extends Facts₀ where

variable [Facts]
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.LibAxisCasts.lean ====
/-
  Re-laid arrays read at an index given by coordinates: a unit axis inserted in the middle of a matrix, rows or
  planes repeated along a new or unit axis, a vector viewed with two leading unit axes, and the two leading axes of
  a rank-3 array merged into one (and split again).

  A shape cast keeps the row-major position of every element, so an element of the result is the operand's element
  with the same position; a broadcast reads the operand at the result's coordinates, with coordinate 0 on each of the
  operand's unit axes.  Each lemma below is that fact at one pair of shapes with both indices written by their
  coordinates, so that it applies to a printed operation by unification.
-/
import Idealize.ShloMosaic.Lib.Pipeline.Value
import Idealize.ShloMosaic.Lib.ValueIdx

namespace Idealize.ShloMosaic.AxisCasts

open Idealize.ShloMosaic Idealize.ShloMosaic.ValueIdx

variable {α : Type}

/-- An `[a, b]` matrix cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, b]` array broadcast to `[a, c, b]` reads, at `(i, u, j)`, the operand at `(i, 0, j)`: every
    middle coordinate sees the same row. -/
theorem broadcastTo_a1b_acb_apply {a c b : ℕ} (x : (⟨3, ![a, 1, b]⟩ : Shape).Idx → α)
    (h : (⟨3, ![a, 1, b]⟩ : Shape).Broadcasts ⟨3, ![a, c, b]⟩) (i : Fin a) (u : Fin c) (j : Fin b) :
    broadcastTo ⟨3, ![a, c, b]⟩ x h (ix3 i u j) = x (ix3 i (0 : Fin 1) j) := by
  refine broadcastTo_apply x h (ix3 i u j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, u, j)`, the operand at `(0, u, j)`: every
    leading coordinate sees the same plane. -/
theorem broadcastTo_1cb_acb_apply {a c b : ℕ} (x : (⟨3, ![1, c, b]⟩ : Shape).Idx → α)
    (h : (⟨3, ![1, c, b]⟩ : Shape).Broadcasts ⟨3, ![a, c, b]⟩) (i : Fin a) (u : Fin c) (j : Fin b) :
    broadcastTo ⟨3, ![a, c, b]⟩ x h (ix3 i u j) = x (ix3 (0 : Fin 1) u j) := by
  refine broadcastTo_apply x h (ix3 i u j) (ix3 (0 : Fin 1) u j) fun ax => ?_
  match ax with
  | ⟨0, _⟩ => rfl
  | ⟨1, _⟩ =>
    show u.val = if c = 1 then 0 else u.val
    split
    · have := u.isLt; omega
    · rfl
  | ⟨2, _⟩ =>
    show j.val = if b = 1 then 0 else j.val
    split
    · have := j.isLt; omega
    · rfl

/-- An `[a]` vector cast to `[1, 1, a]` reads, at `(u, u', k)`, the operand at `k`. -/
theorem shapeCast_a_11a_apply {a : ℕ} (x : (⟨1, ![a]⟩ : Shape).Idx → α)
    (h : (⟨1, ![a]⟩ : Shape).ShapeCasts ⟨3, ![1, 1, a]⟩) (u u' : Fin 1) (k : Fin a) :
    shapeCast ⟨3, ![1, 1, a]⟩ x h (ix3 u u' k) = x (ix1 k) :=
  shapeCast_apply x h _ _ (by
    have hu : u.val = 0 := by omega
    have hu' : u'.val = 0 := by omega
    rw [Shape.rowMajor_val_one, Shape.rowMajor_val_three]
    show k.val = (u.val * 1 + u'.val) * a + k.val
    rw [hu, hu']; omega)

/-- A `[1, 1, b]` array broadcast to `[a, c, b]` reads, at `(i, u, j)`, the operand at `(0, 0, j)`: one row
    repeated over both leading axes. -/
theorem broadcastTo_11b_acb_apply {a c b : ℕ} (x : (⟨3, ![1, 1, b]⟩ : Shape).Idx → α)
    (h : (⟨3, ![1, 1, b]⟩ : Shape).Broadcasts ⟨3, ![a, c, b]⟩) (i : Fin a) (u : Fin c) (j : Fin b) :
    broadcastTo ⟨3, ![a, c, b]⟩ x h (ix3 i u j) = x (ix3 (0 : Fin 1) (0 : Fin 1) j) := by
  refine broadcastTo_apply x h (ix3 i u j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

/-- An `[a, c, b]` array cast to `[m, b]` (its two leading axes merged, `m = a · c`) reads, at `(r, k)`, the
    operand at `(i, u, k)` where `r = i · c + u`. -/
theorem shapeCast_acb_mb_apply {a c b m : ℕ} (x : (⟨3, ![a, c, b]⟩ : Shape).Idx → α)
    (h : (⟨3, ![a, c, b]⟩ : Shape).ShapeCasts ⟨2, ![m, b]⟩) (r : Fin m) (k : Fin b) (i : Fin a) (u : Fin c)
    (hr : r.val = i.val * c + u.val) :
    shapeCast ⟨2, ![m, b]⟩ x h (ix2 r k) = x (ix3 i u k) :=
  shapeCast_apply x h _ _ (by
    rw [Shape.rowMajor_val_three, Shape.rowMajor_val_two]
    show (i.val * c + u.val) * b + k.val = r.val * b + k.val
    rw [hr])

/-- An `[m, b]` matrix cast to `[a, c, b]` (its rows split into `a` groups of `c`, `m = a · c`) reads, at
    `(i, u, k)`, the operand at `(r, k)` where `r = i · c + u`. -/
theorem shapeCast_mb_acb_apply {a c b m : ℕ} (x : (⟨2, ![m, b]⟩ : Shape).Idx → α)
    (h : (⟨2, ![m, b]⟩ : Shape).ShapeCasts ⟨3, ![a, c, b]⟩) (i : Fin a) (u : Fin c) (k : Fin b) (r : Fin m)
    (hr : r.val = i.val * c + u.val) :
    shapeCast ⟨3, ![a, c, b]⟩ x h (ix3 i u k) = x (ix2 r k) :=
  shapeCast_apply x h _ _ (by
    rw [Shape.rowMajor_val_two, Shape.rowMajor_val_three]
    show r.val * b + k.val = (i.val * c + u.val) * b + k.val
    rw [hr])

end Idealize.ShloMosaic.AxisCasts
-- ==== Proof.JointSpec.lean ====
/-
  The joint network's logits as one function of the argument arrays.

  For a batch entry b, an encoder frame t, a decoder step u and a vocabulary entry v:
    hidden (b, t, u, k) = tanh ( Σ_d enc (b, t, d) · W1 (d, k)  +  Σ_d dec (b, u, d) · W1 (512 + d, k)  +  b1 (k) )
    logit  (b, t, u, v) = Σ_k hidden (b, t, u, k) · W2 (k, v)  +  b2 (v)
  over the extended reals: the upper half of the stacked weight W1 projects the encoder state, the lower half the
  decoder state, their sum plus the bias goes through tanh, and the result is projected to the vocabulary.
  Both programs compute exactly this, each sum taken in the order of its contraction coordinate.
-/
import Idealize.ShloMosaic.PureOps.Ideal
import Idealize.ShloMosaic.Lib.ValueIdx

noncomputable section

open scoped BigOperators

namespace Cert.Joint

open Idealize.ShloMosaic Idealize.ShloMosaic.ValueIdx

/-- Row `d` of the stacked weight's upper half (the rows that meet the encoder state). -/
def encRow (d : Fin 512) : Fin 1024 := ⟨d.val, by omega⟩
/-- Row `d` of the stacked weight's lower half (the rows that meet the decoder state). -/
def decRow (d : Fin 512) : Fin 1024 := ⟨512 + d.val, by omega⟩

/-- The hidden activation at batch entry `b`, encoder frame `t`, decoder step `u`, hidden unit `k`. -/
def hidden (enc : (⟨3, ![4, 256, 512]⟩ : Shape).Idx → EReal) (dec : (⟨3, ![4, 64, 512]⟩ : Shape).Idx → EReal)
    (w1 : (⟨2, ![1024, 512]⟩ : Shape).Idx → EReal) (b1 : (⟨1, ![512]⟩ : Shape).Idx → EReal)
    (b : Fin 4) (t : Fin 256) (u : Fin 64) (k : Fin 512) : EReal :=
  Ideal.tanh ((∑ d : Fin 512, enc (ix3 b t d) * w1 (ix2 (encRow d) k))
    + (∑ d : Fin 512, dec (ix3 b u d) * w1 (ix2 (decRow d) k)) + b1 (ix1 k))

/-- The logit at batch entry `b`, encoder frame `t`, decoder step `u`, vocabulary entry `v`. -/
def logit (enc : (⟨3, ![4, 256, 512]⟩ : Shape).Idx → EReal) (dec : (⟨3, ![4, 64, 512]⟩ : Shape).Idx → EReal)
    (w1 : (⟨2, ![1024, 512]⟩ : Shape).Idx → EReal) (b1 : (⟨1, ![512]⟩ : Shape).Idx → EReal)
    (w2 : (⟨2, ![512, 2048]⟩ : Shape).Idx → EReal) (b2 : (⟨1, ![2048]⟩ : Shape).Idx → EReal)
    (b : Fin 4) (t : Fin 256) (u : Fin 64) (v : Fin 2048) : EReal :=
  (∑ k : Fin 512, hidden enc dec w1 b1 b t u k * w2 (ix2 k v)) + b2 (ix1 v)

/-- The whole array of logits, index by index. -/
def logits (enc : (⟨3, ![4, 256, 512]⟩ : Shape).Idx → EReal) (dec : (⟨3, ![4, 64, 512]⟩ : Shape).Idx → EReal)
    (w1 : (⟨2, ![1024, 512]⟩ : Shape).Idx → EReal) (b1 : (⟨1, ![512]⟩ : Shape).Idx → EReal)
    (w2 : (⟨2, ![512, 2048]⟩ : Shape).Idx → EReal) (b2 : (⟨1, ![2048]⟩ : Shape).Idx → EReal) :
    (⟨4, ![4, 256, 64, 2048]⟩ : Shape).Idx → EReal :=
  fun i => logit enc dec w1 b1 w2 b2 (i 0) (i 1) (i 2) (i 3)

/-- At an index written by its coordinates the array holds that logit. -/
theorem logits_ix4 (enc : (⟨3, ![4, 256, 512]⟩ : Shape).Idx → EReal) (dec : (⟨3, ![4, 64, 512]⟩ : Shape).Idx → EReal)
    (w1 : (⟨2, ![1024, 512]⟩ : Shape).Idx → EReal) (b1 : (⟨1, ![512]⟩ : Shape).Idx → EReal)
    (w2 : (⟨2, ![512, 2048]⟩ : Shape).Idx → EReal) (b2 : (⟨1, ![2048]⟩ : Shape).Idx → EReal)
    (b : Fin 4) (t : Fin 256) (u : Fin 64) (v : Fin 2048) :
    logits enc dec w1 b1 w2 b2 (ix4 b t u v) = logit enc dec w1 b1 w2 b2 b t u v := rfl

end Cert.Joint

end
-- ==== Proof.JointBody.lean ====
/-
  What the kernel body stores, read at one entry of its output block.

  At a grid point the body holds a [1, 16, 512] block of the encoder state, a [1, 64, 512] block of the decoder state,
  the two halves of the first weight, the first bias, the vocabulary weight and the second bias.  It multiplies the
  encoder block and the decoder block by their halves, repeats the encoder rows over the 64 decoder steps and the
  decoder rows over the 16 encoder frames, adds them and the bias, applies tanh, views the [16, 64, 512] result as
  1024 rows (row p · 64 + u is frame p, step u), multiplies by the vocabulary weight, adds the second bias and views
  the 1024 rows as [1, 16, 64, 2048] again.  So entry (0, p, u, v) of the stored block is
    Σ_k tanh ( Σ_d e (0, p, d) · We (d, k) + Σ_d s (0, u, d) · Wd (d, k) + b1 (k) ) · W2 (k, v) + b2 (v),
  every matrix product a plain sum over its contraction coordinate at the ideal values, and every change of float
  format the identity there.
-/
import proofs.«170602_j81578608820616_1_alg».proof.Proof.Gen.KernelIdeal.Skeleton
import proofs.«170602_j81578608820616_1_alg».proof.Proof.LibPlainMatmul
import proofs.«170602_j81578608820616_1_alg».proof.Proof.LibAxisCasts
import proofs.«170602_j81578608820616_1_alg».proof.Proof.JointSpec
import Idealize.ShloMosaic.Lib.ValueLayout

noncomputable section

open scoped BigOperators

namespace Cert.KernelIdeal.Joint

open Cert.KernelIdeal Cert.KernelIdeal.Gen Idealize.ShloMosaic Idealize.ShloMosaic.ValueIdx
open Idealize.ShloMosaic.PlainMatmul Idealize.ShloMosaic.AxisCasts

/-- Entry (0, p, u, v) of the block the body stores, from the blocks it loaded. -/
theorem stored_apply (e : FVec Ideal S1x16x512 .bf16) (s : FVec Ideal S1x64x512 .bf16)
    (we wd : FVec Ideal S512x512 .bf16) (b1 : FVec Ideal S512 .f32) (w2 : FVec Ideal S512x2048 .bf16)
    (b2 : FVec Ideal S2048 .f32) (p : Fin 16) (u : Fin 64) (v : Fin 2048) :
    k0_pay1 (F := Ideal) e s we wd b1 w2 b2 (ix4 (0 : Fin 1) p u v)
      = (∑ k : Fin 512, Ideal.tanh ((∑ d : Fin 512, e (ix3 (0 : Fin 1) p d) * we (ix2 d k))
            + (∑ d : Fin 512, s (ix3 (0 : Fin 1) u d) * wd (ix2 d k)) + b1 (ix1 k)) * w2 (ix2 k v))
          + b2 (ix1 v) := by
  unfold k0_pay1
  -- the 1024 rows viewed as [1, 16, 64, 2048]: row p · 64 + u
  refine (shapeCast_abc_1abc_apply _ _ (0 : Fin 1) p u v).trans ?_
  refine (shapeCast_mb_acb_apply _ _ p u v ⟨p.val * 64 + u.val, by omega⟩ rfl).trans ?_
  refine (addf_apply _ _ _).trans ?_
  refine congrArg₂ (· + ·) ?_ ?_
  · -- the product with the vocabulary weight
    refine (matmul_zero_apply dot_S1024x512_S512x2048_S1024x2048_1_0_0_1_n_n rfl rfl rfl rfl rfl rfl none _ _ _ _).trans ?_
    refine Finset.sum_congr rfl fun k _ => ?_
    refine congrArg₂ (· * ·) ?_ (congrFun (shapeCast_self _ _) _)
    -- row p · 64 + u of the activations is (p, u)
    refine (shapeCast_acb_mb_apply _ _ _ k p u rfl).trans ?_
    show Ideal.tanh _ = Ideal.tanh _
    refine congrArg Ideal.tanh ?_
    refine (addf_apply _ _ _).trans ?_
    refine congrArg₂ (· + ·) ((addf_apply _ _ _).trans (congrArg₂ (· + ·) ?_ ?_)) ?_
    · -- the encoder projection, repeated over the decoder steps
      refine (broadcastTo_a1b_acb_apply _ _ p u k).trans ?_
      refine (congrFun (shapeCast_self _ _) _).trans ?_
      refine (shapeCast_ab_a1b_apply _ _ p (0 : Fin 1) k).trans ?_
      refine (matmul_zero_apply dot_S16x512_S512x512_S16x512_1_0_0_1_n_n rfl rfl rfl rfl rfl rfl none _ _ p k).trans ?_
      refine Finset.sum_congr rfl fun d _ => ?_
      exact congrArg₂ (· * ·) (shapeCast_1ab_ab_apply _ _ p d) (congrFun (shapeCast_self _ _) _)
    · -- the decoder projection, repeated over the encoder frames
      refine (broadcastTo_1cb_acb_apply _ _ p u k).trans ?_
      refine (congrFun (shapeCast_self _ _) _).trans ?_
      refine (shapeCast_ab_1ab_apply _ _ (0 : Fin 1) u k).trans ?_
      refine (matmul_zero_apply dot_S64x512_S512x512_S64x512_1_0_0_1_n_n rfl rfl rfl rfl rfl rfl none _ _ u k).trans ?_
      refine Finset.sum_congr rfl fun d _ => ?_
      exact congrArg₂ (· * ·) (shapeCast_1ab_ab_apply _ _ u d) (congrFun (shapeCast_self _ _) _)
    · -- the first bias, repeated over frames and steps
      exact (broadcastTo_11b_acb_apply _ _ p u k).trans (shapeCast_a_11a_apply _ _ (0 : Fin 1) (0 : Fin 1) k)
  · -- the second bias, repeated over the 1024 rows
    exact (broadcastTo_1b_ab_apply _ _ _ v).trans (shapeCast_a_1a_apply _ _ (0 : Fin 1) v)

/-- When the loaded blocks are what the grid point reads of the argument arrays — the encoder block rows
    `t0 … t0 + 15` of batch entry `bi`, the decoder block all of batch entry `bi`, the two weight blocks the upper and
    the lower half of the stacked weight, the rest whole — entry (0, p, u, v) of the stored block is the logit at
    (bi, t0 + p, u, v). -/
theorem stored_is_logit (e : FVec Ideal S1x16x512 .bf16) (s : FVec Ideal S1x64x512 .bf16)
    (we wd : FVec Ideal S512x512 .bf16) (b1 : FVec Ideal S512 .f32) (w2 : FVec Ideal S512x2048 .bf16)
    (b2 : FVec Ideal S2048 .f32)
    (enc : (⟨3, ![4, 256, 512]⟩ : Shape).Idx → EReal) (dec : (⟨3, ![4, 64, 512]⟩ : Shape).Idx → EReal)
    (w1 : (⟨2, ![1024, 512]⟩ : Shape).Idx → EReal) (c1 : (⟨1, ![512]⟩ : Shape).Idx → EReal)
    (wv : (⟨2, ![512, 2048]⟩ : Shape).Idx → EReal) (c2 : (⟨1, ![2048]⟩ : Shape).Idx → EReal)
    (bi : Fin 4) (t0 : Nat) (ht0 : t0 + 16 ≤ 256)
    (he : ∀ (p : Fin 16) (d : Fin 512), e (ix3 (0 : Fin 1) p d) = enc (ix3 bi ⟨t0 + p.val, by omega⟩ d))
    (hs : ∀ (u : Fin 64) (d : Fin 512), s (ix3 (0 : Fin 1) u d) = dec (ix3 bi u d))
    (hwe : ∀ (d k : Fin 512), we (ix2 d k) = w1 (ix2 (Cert.Joint.encRow d) k))
    (hwd : ∀ (d k : Fin 512), wd (ix2 d k) = w1 (ix2 (Cert.Joint.decRow d) k))
    (hb1 : ∀ k : Fin 512, b1 (ix1 k) = c1 (ix1 k))
    (hw2 : ∀ (k : Fin 512) (v : Fin 2048), w2 (ix2 k v) = wv (ix2 k v))
    (hb2 : ∀ v : Fin 2048, b2 (ix1 v) = c2 (ix1 v))
    (p : Fin 16) (u : Fin 64) (v : Fin 2048) :
    k0_pay1 (F := Ideal) e s we wd b1 w2 b2 (ix4 (0 : Fin 1) p u v)
      = Cert.Joint.logit enc dec w1 c1 wv c2 bi ⟨t0 + p.val, by omega⟩ u v := by
  rw [stored_apply]
  unfold Cert.Joint.logit Cert.Joint.hidden
  simp only [he, hs, hwe, hwd, hb1, hw2, hb2]

end Cert.KernelIdeal.Joint

end
-- ==== Proof.JointBlocks.lean ====
/-
  From the blocks the grid points write to the whole result array.

  The grid has 4 × 16 points; point (bi, ti) reads rows 16·ti … 16·ti + 15 of the encoder state's batch entry bi, all
  of the decoder state's batch entry bi and the weights and biases whole, and writes block (bi, ti) of the result:
  frames 16·ti … 16·ti + 15 of batch entry bi, every decoder step and vocabulary entry.  Before the launch the host
  only cuts the stacked weight into its halves and changes float formats, which at the ideal values changes nothing:
  the arrays the windows stage are the arguments themselves and the two halves of the stacked weight.  So what each
  point writes back is its block of the one array of logits, the 64 blocks cover the array, and the array ends
  holding the logits.
-/
import proofs.«170602_j81578608820616_1_alg».proof.Proof.Gen.KernelIdeal.Value
import proofs.«170602_j81578608820616_1_alg».proof.Proof.JointBody
import Idealize.ShloMosaic.Lib.ValueLayout
import Idealize.ShloMosaic.Lib.StableHlo.Run

noncomputable section

open scoped BigOperators

namespace Cert.KernelIdeal.Joint

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the windows stage, as the launch finds them -/

/-- The encoder state in the narrow format is the encoder state. -/
theorem staged_enc (c : Dev nD) : (V m c main_v5 : S4x256x512.Idx → EReal) = m ((c : Thread nD τ).loc main_arg0) := by
  dsimp only [V, hostOps0]
  after_results
  rfl

/-- The decoder state in the narrow format is the decoder state. -/
theorem staged_dec (c : Dev nD) : (V m c main_v6 : S4x64x512.Idx → EReal) = m ((c : Thread nD τ).loc main_arg1) := by
  dsimp only [V, hostOps0]
  after_results
  rfl

/-- The first weight operand is rows 0 … 511 of the stacked weight. -/
theorem staged_we (c : Dev nD) : (V m c main_v1 : S512x512.Idx → EReal)
    = extractStridedSlice S512x512 ![0, 0] (m ((c : Thread nD τ).loc main_arg2)) slices_S1024x512_S512x512_0_0 := by
  dsimp only [V, hostOps0]
  after_results
  rfl

/-- The second weight operand is rows 512 … 1023 of the stacked weight. -/
theorem staged_wd (c : Dev nD) : (V m c main_v3 : S512x512.Idx → EReal)
    = extractStridedSlice S512x512 ![512, 0] (m ((c : Thread nD τ).loc main_arg2)) slices_S1024x512_S512x512_512_0 := by
  dsimp only [V, hostOps0]
  after_results
  rfl

/-- The vocabulary weight in the narrow format is the vocabulary weight. -/
theorem staged_w2 (c : Dev nD) : (V m c main_v4 : S512x2048.Idx → EReal) = m ((c : Thread nD τ).loc main_arg4) := by
  dsimp only [V, hostOps0]
  after_results
  rfl

/-! ## Each input block, read off its array -/

/-- The encoder block at a point: rows `t0 … t0 + 15` of batch entry `bi`. -/
theorem enc_block (c : Dev nD) (t : Fin cfg0.N) (bi : Fin 4) (t0 : Nat)
    (h0 : win0_0.index t 0 = bi.val) (h1 : win0_0.index t 1 * 16 = t0) (h2 : win0_0.index t 2 = 0)
    (p : Fin 16) (d : Fin 512) (hlt : t0 + p.val < 256) :
    (iblk m c 0 t : FVec Ideal S1x16x512 .bf16) (ix3 (0 : Fin 1) p d)
      = (m ((c : Thread nD τ).loc main_arg0) : S4x256x512.Idx → EReal) (ix3 bi ⟨t0 + p.val, hlt⟩ d) := by
  unfold iblk
  rw [View.read_apply]
  show (V m c main_v5 : S4x256x512.Idx → EReal) _ = _
  rw [staged_enc]
  refine congrArg (m ((c : Thread nD τ).loc main_arg0)) (funext fun a => Fin.ext ?_)
  match a with
  | ⟨0, _⟩ => show win0_0.index t 0 * 1 + 1 * 0 = bi.val; omega
  | ⟨1, _⟩ => show win0_0.index t 1 * 16 + 1 * p.val = t0 + p.val; omega
  | ⟨2, _⟩ => show win0_0.index t 2 * 512 + 1 * d.val = d.val; omega

/-- The decoder block at a point: all of batch entry `bi`. -/
theorem dec_block (c : Dev nD) (t : Fin cfg0.N) (bi : Fin 4)
    (h0 : win0_1.index t 0 = bi.val) (h1 : win0_1.index t 1 = 0) (h2 : win0_1.index t 2 = 0)
    (u : Fin 64) (d : Fin 512) :
    (iblk m c 1 t : FVec Ideal S1x64x512 .bf16) (ix3 (0 : Fin 1) u d)
      = (m ((c : Thread nD τ).loc main_arg1) : S4x64x512.Idx → EReal) (ix3 bi u d) := by
  unfold iblk
  rw [View.read_apply]
  show (V m c main_v6 : S4x64x512.Idx → EReal) _ = _
  rw [staged_dec]
  refine congrArg (m ((c : Thread nD τ).loc main_arg1)) (funext fun a => Fin.ext ?_)
  match a with
  | ⟨0, _⟩ => show win0_1.index t 0 * 1 + 1 * 0 = bi.val; omega
  | ⟨1, _⟩ => show win0_1.index t 1 * 64 + 1 * u.val = u.val; omega
  | ⟨2, _⟩ => show win0_1.index t 2 * 512 + 1 * d.val = d.val; omega

/-- The first weight block: the upper half of the stacked weight. -/
theorem we_block (c : Dev nD) (t : Fin cfg0.N) (h0 : win0_2.index t 0 = 0) (h1 : win0_2.index t 1 = 0)
    (d k : Fin 512) :
    (iblk m c 2 t : FVec Ideal S512x512 .bf16) (ix2 d k)
      = (m ((c : Thread nD τ).loc main_arg2) : S1024x512.Idx → EReal) (ix2 (Cert.Joint.encRow d) k) := by
  unfold iblk
  rw [View.read_apply]
  show (V m c main_v1 : S512x512.Idx → EReal) _ = _
  rw [staged_we]
  refine extractStridedSlice_apply _ _ _ _ (ix2 (Cert.Joint.encRow d) k) fun a => ?_
  match a with
  | ⟨0, _⟩ => show d.val = 0 + (win0_2.index t 0 * 512 + 1 * d.val); omega
  | ⟨1, _⟩ => show k.val = 0 + (win0_2.index t 1 * 512 + 1 * k.val); omega

/-- The second weight block: the lower half of the stacked weight. -/
theorem wd_block (c : Dev nD) (t : Fin cfg0.N) (h0 : win0_3.index t 0 = 0) (h1 : win0_3.index t 1 = 0)
    (d k : Fin 512) :
    (iblk m c 3 t : FVec Ideal S512x512 .bf16) (ix2 d k)
      = (m ((c : Thread nD τ).loc main_arg2) : S1024x512.Idx → EReal) (ix2 (Cert.Joint.decRow d) k) := by
  unfold iblk
  rw [View.read_apply]
  show (V m c main_v3 : S512x512.Idx → EReal) _ = _
  rw [staged_wd]
  refine extractStridedSlice_apply _ _ _ _ (ix2 (Cert.Joint.decRow d) k) fun a => ?_
  match a with
  | ⟨0, _⟩ => show 512 + d.val = 512 + (win0_3.index t 0 * 512 + 1 * d.val); omega
  | ⟨1, _⟩ => show k.val = 0 + (win0_3.index t 1 * 512 + 1 * k.val); omega

/-- The first bias block: the first bias. -/
theorem b1_block (c : Dev nD) (t : Fin cfg0.N) (h0 : win0_4.index t 0 = 0) (k : Fin 512) :
    (iblk m c 4 t : FVec Ideal S512 .f32) (ix1 k)
      = (m ((c : Thread nD τ).loc main_arg3) : S512.Idx → EReal) (ix1 k) := by
  unfold iblk
  rw [View.read_apply]
  show (V m c main_arg3 : S512.Idx → EReal) _ = _
  rw [V_main_arg3]
  refine congrArg (m ((c : Thread nD τ).loc main_arg3)) (funext fun a => Fin.ext ?_)
  match a with
  | ⟨0, _⟩ => show win0_4.index t 0 * 512 + 1 * k.val = k.val; omega

/-- The vocabulary weight block: the vocabulary weight. -/
theorem w2_block (c : Dev nD) (t : Fin cfg0.N) (h0 : win0_5.index t 0 = 0) (h1 : win0_5.index t 1 = 0)
    (k : Fin 512) (v : Fin 2048) :
    (iblk m c 5 t : FVec Ideal S512x2048 .bf16) (ix2 k v)
      = (m ((c : Thread nD τ).loc main_arg4) : S512x2048.Idx → EReal) (ix2 k v) := by
  unfold iblk
  rw [View.read_apply]
  show (V m c main_v4 : S512x2048.Idx → EReal) _ = _
  rw [staged_w2]
  refine congrArg (m ((c : Thread nD τ).loc main_arg4)) (funext fun a => Fin.ext ?_)
  match a with
  | ⟨0, _⟩ => show win0_5.index t 0 * 512 + 1 * k.val = k.val; omega
  | ⟨1, _⟩ => show win0_5.index t 1 * 2048 + 1 * v.val = v.val; omega

/-- The second bias block: the second bias. -/
theorem b2_block (c : Dev nD) (t : Fin cfg0.N) (h0 : win0_6.index t 0 = 0) (v : Fin 2048) :
    (iblk m c 6 t : FVec Ideal S2048 .f32) (ix1 v)
      = (m ((c : Thread nD τ).loc main_arg5) : S2048.Idx → EReal) (ix1 v) := by
  unfold iblk
  rw [View.read_apply]
  show (V m c main_arg5 : S2048.Idx → EReal) _ = _
  rw [V_main_arg5]
  refine congrArg (m ((c : Thread nD τ).loc main_arg5)) (funext fun a => Fin.ext ?_)
  match a with
  | ⟨0, _⟩ => show win0_6.index t 0 * 2048 + 1 * v.val = v.val; omega

/-! ## The index maps over the grid -/

/-- The block indices at every grid point: the encoder window moves with the output on the batch and frame axes,
    the decoder window on the batch axis alone, the weights and biases stay at block 0, and the output's block index
    is (bi, ti, 0, 0) with bi below 4 and ti below 16. -/
theorem index_facts : ∀ t : Fin cfg0.N,
    win0_0.index t (0 : Fin 3) = win0_7.index t (0 : Fin 4) ∧ win0_0.index t (1 : Fin 3) = win0_7.index t (1 : Fin 4)
    ∧ win0_0.index t (2 : Fin 3) = 0
    ∧ win0_1.index t (0 : Fin 3) = win0_7.index t (0 : Fin 4) ∧ win0_1.index t (1 : Fin 3) = 0
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 4) ≤ 3 ∧ win0_7.index t (1 : Fin 4) ≤ 15
    ∧ win0_7.index t (2 : Fin 4) = 0 ∧ win0_7.index t (3 : Fin 4) = 0 :=
  (by decide +kernel : ∀ t : Fin grid0.N, _)

/-- Every output block (bi, ti) is some grid point's. -/
theorem index_onto : ∀ (q0 : Fin 4) (q1 : Fin 16), ∃ t : Fin cfg0.N, win0_7.index t = ![q0.val, q1.val, 0, 0] :=
  (by decide +kernel : ∀ (q0 : Fin 4) (q1 : Fin 16), ∃ t : Fin grid0.N, win0_7.index t = ![q0.val, q1.val, 0, 0])

/-! ## What a point writes back, the cover, the final array -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The array of logits of the arguments as launched. -/
abbrev result (c : Dev nD) : S4x256x64x2048.Idx → EReal :=
  Cert.Joint.logits (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- What point `t` writes back is block `t` of the array of logits. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero hz4]
  simp only [View.ld_unit_zero (S := S1x16x512) hz3, View.ld_unit_zero (S := S1x64x512) hz3,
    View.ld_unit_zero (S := S512x512) hz2, View.ld_unit_zero (S := S512) hz1,
    View.ld_unit_zero (S := S512x2048) hz2, View.ld_unit_zero (S := S2048) hz1]
  obtain ⟨f00, f01, f02, f10, f11, f12, f20, f21, f30, f31, f40, f50, f51, f60, hb, ht, f72, f73⟩ := index_facts t
  refine funext fun (j : S1x16x64x2048.Idx) => ?_
  obtain ⟨z, p, u, v, rfl⟩ : ∃ (z : Fin 1) (p : Fin 16) (u : Fin 64) (v : Fin 2048), j = ix4 z p u v :=
    ⟨j 0, j 1, j 2, j 3, eq_ix4 j⟩
  obtain rfl : z = 0 := Fin.ext (by omega)
  have hbi : win0_7.index t (0 : Fin 4) < 4 := by omega
  have hp : p.val < 16 := p.isLt
  refine (stored_is_logit (iblk m c 0 t) (iblk m c 1 t) (iblk m c 2 t) (iblk m c 3 t) (iblk m c 4 t)
    (iblk m c 5 t) (iblk m c 6 t)
    (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    ⟨win0_7.index t (0 : Fin 4), hbi⟩ (win0_7.index t (1 : Fin 4) * 16) (by omega)
    (fun p d => enc_block m c t _ _ f00 (by rw [f01]) f02 p d _)
    (fun u d => dec_block m c t _ f10 f11 f12 u d)
    (fun d k => we_block m c t f20 f21 d k)
    (fun d k => wd_block m c t f30 f31 d k)
    (fun k => b1_block m c t f40 k)
    (fun k v => w2_block m c t f50 f51 k v)
    (fun v => b2_block m c t f60 v) p u v).trans ?_
  rw [View.read_apply]
  symm
  refine (congrArg (result m c) (funext fun a => Fin.ext ?_)).trans
    (Cert.Joint.logits_ix4 _ _ _ _ _ _ ⟨win0_7.index t (0 : Fin 4), hbi⟩
      ⟨win0_7.index t (1 : Fin 4) * 16 + p.val, by omega⟩ u v)
  match a with
  | ⟨0, _⟩ => show win0_7.index t (0 : Fin 4) * 1 + 1 * 0 = win0_7.index t (0 : Fin 4); omega
  | ⟨1, _⟩ => show win0_7.index t (1 : Fin 4) * 16 + 1 * p.val = win0_7.index t (1 : Fin 4) * 16 + p.val; omega
  | ⟨2, _⟩ => show win0_7.index t (2 : Fin 4) * 64 + 1 * u.val = u.val; omega
  | ⟨3, _⟩ => show win0_7.index t (3 : Fin 4) * 2048 + 1 * v.val = v.val; omega

/-- An index of the result array is in point `t`'s block iff each coordinate is in the block's range on its axis. -/
theorem mem_blk (t : Fin cfg0.N) (i : S4x256x64x2048.Idx) :
    i ∈ ((cfg0.win 7).blk t).view.set
      ↔ ∀ a : Fin 4, win0_7.index t a * S1x16x64x2048.size a ≤ (i a).val
          ∧ (i a).val < win0_7.index t a * S1x16x64x2048.size a + S1x16x64x2048.size a := by
  show i ∈ ((View.whole main_v7).slice (win0_7.rect t)).set ↔ _
  rw [View.set_slice_whole, Rect.mem_set_unit]
  exact Iff.rfl

/-- Every index of the result array is in some point's block: the point of batch entry `i 0` and frame tile
    `i 1 / 16`. -/
theorem covered (i : S4x256x64x2048.Idx) :
    ∃ t : Fin cfg0.N, (cfg0.win 7).flush t = true ∧ i ∈ ((cfg0.win 7).blk t).view.set := by
  have hi0 : (i 0).val < 4 := (i 0).isLt
  have hi1 : (i 1).val < 256 := (i 1).isLt
  have hi2 : (i 2).val < 64 := (i 2).isLt
  have hi3 : (i 3).val < 2048 := (i 3).isLt
  obtain ⟨t, ht⟩ := index_onto ⟨(i 0).val, hi0⟩ ⟨(i 1).val / 16, by omega⟩
  have q0 : win0_7.index t (0 : Fin 4) = (i 0).val := congrFun ht 0
  have q1 : win0_7.index t (1 : Fin 4) = (i 1).val / 16 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ =>
    show win0_7.index t (0 : Fin 4) * 1 ≤ (i 0).val ∧ (i 0).val < win0_7.index t (0 : Fin 4) * 1 + 1
    omega
  | ⟨1, _⟩ =>
    show win0_7.index t (1 : Fin 4) * 16 ≤ (i 1).val ∧ (i 1).val < win0_7.index t (1 : Fin 4) * 16 + 16
    omega
  | ⟨2, _⟩ =>
    show win0_7.index t (2 : Fin 4) * 64 ≤ (i 2).val ∧ (i 2).val < win0_7.index t (2 : Fin 4) * 64 + 64
    omega
  | ⟨3, _⟩ =>
    show win0_7.index t (3 : Fin 4) * 2048 ≤ (i 3).val ∧ (i 3).val < win0_7.index t (3 : Fin 4) * 2048 + 2048
    omega

/-- The result array after the run is the array of logits. -/
theorem final (c : Dev nD) : (dats m 0 c).arrAt 7 cfg0.N = result m c :=
  (dats m 0 c).arrAt_eq_of_cover 7 (result m c) (fun t _ => flushed_eq m c t) covered

/-- The kernel's run: the result array ends at the logits of the arguments, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Joint

end
-- ==== Proof.JointReference.lean ====
/-
  The reference computes the joint network's logits.

  Read one operation at a time, the reference is: the stacked weight cut into its two halves, the encoder state
  contracted with the upper half and the decoder state with the lower half (each a sum over the 512 feature
  coordinates), the two projections repeated over the decoder steps and over the encoder frames, their sum plus the
  bias through tanh, the contraction with the vocabulary weight over the 512 hidden units, plus the second bias.
  At an index (b, t, u, v) that is the specification's logit, term by term.
-/
import proofs.«170602_j81578608820616_1_alg».proof.Proof.Gen.ReferenceIdeal.Read
import proofs.«170602_j81578608820616_1_alg».proof.Proof.JointSpec

noncomputable section

open scoped BigOperators

namespace Cert.ReferenceIdeal.Joint

open Cert.ReferenceIdeal Cert.ReferenceIdeal.Read Idealize.ShloMosaic Idealize.ShloMosaic.ValueIdx Cert.Joint

variable (x0 : (⟨S4x256x512, .f32⟩ : BufTy).Contents (Elt Ideal)) (x1 : (⟨S4x64x512, .f32⟩ : BufTy).Contents (Elt Ideal))
  (x2 : (⟨S1024x512, .f32⟩ : BufTy).Contents (Elt Ideal)) (x3 : (⟨S512, .f32⟩ : BufTy).Contents (Elt Ideal))
  (x4 : (⟨S512x2048, .f32⟩ : BufTy).Contents (Elt Ideal)) (x5 : (⟨S2048, .f32⟩ : BufTy).Contents (Elt Ideal))

/-- The encoder projection at (b, t, k): the encoder state's row (b, t) against column k of the upper half. -/
theorem encProj_apply (b : Fin 4) (t : Fin 256) (k : Fin 512) :
    val_main_v2 (F := Ideal) x0 x2 (ix3 b t k) = ∑ d : Fin 512, x0 (ix3 b t d) * x2 (ix2 (encRow d) k) := by
  rw [val_main_v2_apply]
  refine Finset.sum_congr rfl fun d _ => ?_
  rw [val_main_v0_apply]
  have e1 : lidx_main_v2 (ix3 b t k) d = ix3 b t d :=
    funext fun a => by match a with | ⟨0, _⟩ => rfl | ⟨1, _⟩ => rfl | ⟨2, _⟩ => rfl
  have e2 : idx_main_v0 (ridx_main_v2 (ix3 b t k) d) = ix2 (encRow d) k :=
    funext fun a => by match a with | ⟨0, _⟩ => rfl | ⟨1, _⟩ => rfl
  rw [e1, e2]

/-- The decoder projection at (b, u, k): the decoder state's row (b, u) against column k of the lower half. -/
theorem decProj_apply (b : Fin 4) (u : Fin 64) (k : Fin 512) :
    val_main_v3 (F := Ideal) x1 x2 (ix3 b u k) = ∑ d : Fin 512, x1 (ix3 b u d) * x2 (ix2 (decRow d) k) := by
  rw [val_main_v3_apply]
  refine Finset.sum_congr rfl fun d _ => ?_
  rw [val_main_v1_apply]
  have e1 : lidx_main_v3 (ix3 b u k) d = ix3 b u d :=
    funext fun a => by match a with | ⟨0, _⟩ => rfl | ⟨1, _⟩ => rfl | ⟨2, _⟩ => rfl
  have e2 : idx_main_v1 (ridx_main_v3 (ix3 b u k) d) = ix2 (decRow d) k :=
    funext fun a => by match a with | ⟨0, _⟩ => rfl | ⟨1, _⟩ => rfl
  rw [e1, e2]

/-- The reference's activation at (b, t, u, k) is the specification's hidden unit. -/
theorem hidden_apply (b : Fin 4) (t : Fin 256) (u : Fin 64) (k : Fin 512) :
    val_main_v12 (F := Ideal) x0 x1 x2 x3 (ix4 b t u k) = hidden x0 x1 x2 x3 b t u k := by
  rw [val_main_v12_apply, val_main_v11_apply, val_main_v8_apply, val_main_v6_apply, val_main_v4_apply,
    val_main_v7_apply, val_main_v5_apply, val_main_v10_apply, val_main_v9_apply]
  have e1 : idx_main_v4 (idx_main_v6 (ix4 b t u k)) = ix3 b t k :=
    funext fun a => by match a with | ⟨0, _⟩ => rfl | ⟨1, _⟩ => rfl | ⟨2, _⟩ => rfl
  have e2 : idx_main_v5 (idx_main_v7 (ix4 b t u k)) = ix3 b u k :=
    funext fun a => by match a with | ⟨0, _⟩ => rfl | ⟨1, _⟩ => rfl | ⟨2, _⟩ => rfl
  have e3 : idx_main_v9 (idx_main_v10 (ix4 b t u k)) = ix1 k :=
    funext fun a => by match a with | ⟨0, _⟩ => rfl
  rw [e1, e2, e3, encProj_apply, decProj_apply]
  rfl

/-- The reference's result, as the generated stage names it, is the array of logits. -/
theorem result_eq : val_main_v16 (F := Ideal) x0 x1 x2 x3 x4 x5 = logits x0 x1 x2 x3 x4 x5 := by
  funext i
  obtain ⟨b, t, u, v, rfl⟩ : ∃ (b : Fin 4) (t : Fin 256) (u : Fin 64) (v : Fin 2048), i = ix4 b t u v :=
    ⟨i 0, i 1, i 2, i 3, eq_ix4 i⟩
  rw [logits_ix4, val_main_v16_apply, val_main_v13_apply, val_main_v15_apply, val_main_v14_apply]
  have e1 : ∀ k : Fin 512, lidx_main_v13 (ix4 b t u v) k = ix4 b t u k := fun k =>
    funext fun a => by match a with | ⟨0, _⟩ => rfl | ⟨1, _⟩ => rfl | ⟨2, _⟩ => rfl | ⟨3, _⟩ => rfl
  have e2 : ∀ k : Fin 512, ridx_main_v13 (ix4 b t u v) k = ix2 k v := fun k =>
    funext fun a => by match a with | ⟨0, _⟩ => rfl | ⟨1, _⟩ => rfl
  have e3 : idx_main_v14 (idx_main_v15 (ix4 b t u v)) = ix1 v :=
    funext fun a => by match a with | ⟨0, _⟩ => rfl
  rw [e3]
  show (∑ k : Fin 512, _) + _ = (∑ k : Fin 512, _) + _
  refine congrArg (· + x5 (ix1 v)) (Finset.sum_congr rfl fun k _ => ?_)
  rw [e1 k, e2 k, hidden_apply]

end Cert.ReferenceIdeal.Joint

end
-- ==== Proof.lean ====
/-
  The joint network kernel against its reference, over the extended reals.

  Both programs compute, for a batch entry b, an encoder frame t, a decoder step u and a vocabulary entry v,
    logit (b, t, u, v) = Σ_k tanh ( Σ_d enc (b, t, d) · W1 (d, k) + Σ_d dec (b, u, d) · W1 (512 + d, k) + b1 (k) ) · W2 (k, v) + b2 (v)
  (Proof/JointSpec.lean).  The kernel does it block by block — a grid of 4 × 16 points, each point the 16 frames of one
  tile against all 64 decoder steps, with the operands rounded to a narrower float format on the way into each matrix
  product — and the reference in one piece with three contractions.  At the ideal values a change of float format is
  the identity and a matrix product into a zero accumulator is the plain sum over its contraction coordinate, so the
  entry a grid point stores (Proof/JointBody.lean) is the logit at the array index its block covers, the 64 blocks
  cover the result array (Proof/JointBlocks.lean), and the reference's operations read one at a time give the same
  term (Proof/JointReference.lean).  No law beyond reading both sides at an index is needed: the sums run over the
  same coordinates in the same order, so the precondition is never opened.

  The three frame claims are the generated frame runs (the reference's is its generated run with the result dropped);
  the idealization rewrote nothing, so there is nothing to preserve.
-/
import proofs.«170602_j81578608820616_1_alg».proof.Defs
import proofs.«170602_j81578608820616_1_alg».proof.Proof.Gen.Kernel
import proofs.«170602_j81578608820616_1_alg».proof.Proof.Gen.Kernel.Skeleton
import proofs.«170602_j81578608820616_1_alg».proof.Proof.Gen.Kernel.Launch
import proofs.«170602_j81578608820616_1_alg».proof.Proof.Gen.Kernel.Points
import proofs.«170602_j81578608820616_1_alg».proof.Proof.Gen.Kernel.Frame
import proofs.«170602_j81578608820616_1_alg».proof.Proof.Gen.KernelIdeal
import proofs.«170602_j81578608820616_1_alg».proof.Proof.Gen.KernelIdeal.Skeleton
import proofs.«170602_j81578608820616_1_alg».proof.Proof.Gen.KernelIdeal.Launch
import proofs.«170602_j81578608820616_1_alg».proof.Proof.Gen.KernelIdeal.Points
import proofs.«170602_j81578608820616_1_alg».proof.Proof.Gen.KernelIdeal.Frame
import proofs.«170602_j81578608820616_1_alg».proof.Proof.Gen.ReferenceIdeal
import proofs.«170602_j81578608820616_1_alg».proof.Proof.Gen.Pre_finite_inputs
import proofs.«170602_j81578608820616_1_alg».proof.Proof.Gen.KernelIdeal.Value
import proofs.«170602_j81578608820616_1_alg».proof.Proof.Gen.ReferenceIdeal.Run
import proofs.«170602_j81578608820616_1_alg».proof.Proof.Gen.ReferenceIdeal.Read
import proofs.«170602_j81578608820616_1_alg».proof.Proof.JointBlocks
import proofs.«170602_j81578608820616_1_alg».proof.Proof.JointReference
import Idealize.ShloMosaic.Adequacy
import Idealize.ShloMosaic.Init

noncomputable section

namespace Cert.Proof

open Idealize.ShloMosaic Idealize.ShloMosaic.TcCoe Idealize.SL.Sem

/-- The kernel as printed runs, and its arguments end unchanged. -/
theorem frame_kernel : Cert.frame_Kernel := fun m ρ _ => Cert.Kernel.Gen.frame m ρ

/-- The idealized kernel runs, and its arguments end unchanged. -/
theorem frame_kernelIdeal : Cert.frame_KernelIdeal := fun m ρ _ => Cert.KernelIdeal.Gen.frame m ρ

/-- The idealized reference runs, and its arguments end unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the array of logits of those arguments: the
    kernel's result array block by block, the reference's as its last operation's value. -/
theorem algebraic : Cert.algebraic_KernelIdeal_ReferenceIdeal := by
  intro m ρ m' ρ' _ hagree
  refine ⟨fun c => Cert.KernelIdeal.Joint.result m c, Cert.KernelIdeal.Joint.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.ReferenceIdeal.Joint.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
